-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S65536x1024 : Shape := ⟨2, ![65536, 1024]⟩
abbrev S512x1024 : Shape := ⟨2, ![512, 1024]⟩

abbrev nBuf : Space → Nat
  | .hbm => 4
  | .vmem => 4
  | .smem => 0
  | _ => 0

abbrev bufTy : (tb : Table) → Fin (tcTables nBuf tb) → BufTy
  | .hbm, ⟨0, _⟩ => ⟨S64x1024x1024, .f32⟩
  | .hbm, ⟨1, _⟩ => ⟨S65536x1024, .f32⟩
  | .hbm, ⟨2, _⟩ => ⟨S65536x1024, .f32⟩
  | .hbm, ⟨3, _⟩ => ⟨S64x1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x1024x1024_S65536x1024 : S64x1024x1024.ShapeCasts S65536x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S65536x1024_S64x1024x1024 : S65536x1024.ShapeCasts S64x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S65536x1024.size a
  hwx0_1 : ∀ i : grid0.Coords, EltTy.bits .f32 = 32 ∨ (Rect.block (s := S65536x1024) S512x1024.size (cc0_transform_1 i) (hinb0_1 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1024, .f32⟩
  | .hbm, ⟨2, _⟩ => ⟨S_, .f32⟩
  | .hbm, ⟨3, _⟩ => ⟨S64x1024x1024, .f32⟩
  | .hbm, ⟨4, _⟩ => ⟨S64x1024x1024, .f32⟩
  | .hbm, ⟨5, _⟩ => ⟨S64x1024x1024, .f32⟩
  | .hbm, ⟨6, _⟩ => ⟨S64x1024x1024, .f32⟩
  | .hbm, ⟨7, _⟩ => ⟨S64x1024x1024, .f32⟩
  | .hbm, ⟨8, _⟩ => ⟨S_, .f32⟩
  | .hbm, ⟨9, _⟩ => ⟨S64x1024x1024, .f32⟩
  | .hbm, ⟨10, _⟩ => ⟨S64x1024x1024, .f32⟩
  | .hbm, ⟨11, _⟩ => ⟨S_, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S_, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S_, .f32⟩
  | .hbm, ⟨20, _⟩ => ⟨S64x1024x1024, .f32⟩
  | .hbm, ⟨21, _⟩ => ⟨S64x1024x1024, .f32⟩
  | .hbm, ⟨22, _⟩ => ⟨S64x1024x1024, .f32⟩
  | .hbm, ⟨23, _⟩ => ⟨S_, .f32⟩
  | .hbm, ⟨24, _⟩ => ⟨S64x1024x1024, .f32⟩
  | .hbm, ⟨25, _⟩ => ⟨S64x1024x1024, .f32⟩
  | .hbm, ⟨26, _⟩ => ⟨S64x1024x1024, .f32⟩
  | .hbm, ⟨27, _⟩ => ⟨S_, .f32⟩
  | .hbm, ⟨28, _⟩ => ⟨S64x1024x1024, .f32⟩
  | .hbm, ⟨29, _⟩ => ⟨S64x1024x1024, .f32⟩
  | .hbm, ⟨30, _⟩ => ⟨S64x1024x1024, .f32⟩
  | .hbm, ⟨31, _⟩ => ⟨S_, .f32⟩
  | .hbm, ⟨32, _⟩ => ⟨S64x1024x1024, .f32⟩
  | .hbm, ⟨33, _⟩ => ⟨S64x1024x1024, .f32⟩
  | .hbm, ⟨34, _⟩ => ⟨S64x1024x1024, .f32⟩
  | .hbm, ⟨35, _⟩ => ⟨S_, .f32⟩
  | .hbm, ⟨36, _⟩ => ⟨S64x1024x1024, .f32⟩
  | .hbm, ⟨37, _⟩ => ⟨S64x1024x1024, .f32⟩
  | .hbm, ⟨38, _⟩ => ⟨S_, .f32⟩
  | .hbm, ⟨39, _⟩ => ⟨S64x1024x1024, .f32⟩
  | .hbm, ⟨40, _⟩ => ⟨S64x1024x1024, .f32⟩
  | .hbm, ⟨41, _⟩ => ⟨S_, .f32⟩
  | .hbm, ⟨42, _⟩ => ⟨S64x1024x1024, .f32⟩
  | .hbm, ⟨43, _⟩ => ⟨S64x1024x1024, .f32⟩
  | .hbm, ⟨44, _⟩ => ⟨S_, .f32⟩
  | .hbm, ⟨45, _⟩ => ⟨S64x1024x1024, .f32⟩
  | .hbm, ⟨46, _⟩ => ⟨S64x1024x1024, .f32⟩
  | .hbm, ⟨47, _⟩ => ⟨S64x1024x1024, .f32⟩
  | .hbm, ⟨48, _⟩ => ⟨S_, .f32⟩
  | .hbm, ⟨49, _⟩ => ⟨S64x1024x1024, .f32⟩
  | .hbm, ⟨50, _⟩ => ⟨S64x1024x1024, .f32⟩
  | .hbm, ⟨51, _⟩ => ⟨S64x1024x1024, .f32⟩
  | .hbm, ⟨52, _⟩ => ⟨S_, .f32⟩
  | .hbm, ⟨53, _⟩ => ⟨S64x1024x1024, .f32⟩
  | .hbm, ⟨54, _⟩ => ⟨S64x1024x1024, .f32⟩
  | .hbm, ⟨55, _⟩ => ⟨S64x1024x1024, .f32⟩
  | .hbm, ⟨56, _⟩ => ⟨S_, .f32⟩
  | .hbm, ⟨57, _⟩ => ⟨S64x1024x1024, .f32⟩
  | .hbm, ⟨58, _⟩ => ⟨S64x1024x1024, .f32⟩
  | .hbm, ⟨59, _⟩ => ⟨S64x1024x1024, .f32⟩
  | .hbm, ⟨60, _⟩ => ⟨S_, .f32⟩
  | .hbm, ⟨61, _⟩ => ⟨S64x1024x1024, .f32⟩
  | .hbm, ⟨62, _⟩ => ⟨S64x1024x1024, .f32⟩
  | .hbm, ⟨63, _⟩ => ⟨S64x1024x1024, .f32⟩
  | .hbm, ⟨64, _⟩ => ⟨S_, .f32⟩
  | .hbm, ⟨65, _⟩ => ⟨S64x1024x1024, .f32⟩
  | .hbm, ⟨66, _⟩ => ⟨S64x1024x1024, .f32⟩
  | .hbm, ⟨67, _⟩ => ⟨S64x1024x1024, .f32⟩
  | .hbm, ⟨68, _⟩ => ⟨S_, .f32⟩
  | .hbm, ⟨69, _⟩ => ⟨S64x1024x1024, .f32⟩
  | .hbm, ⟨70, _⟩ => ⟨S64x1024x1024, .f32⟩
  | .hbm, ⟨71, _⟩ => ⟨S64x1024x1024, .f32⟩
  | .hbm, ⟨72, _⟩ => ⟨S_, .f32⟩
  | .hbm, ⟨73, _⟩ => ⟨S64x1024x1024, .f32⟩
  | .hbm, ⟨74, _⟩ => ⟨S64x1024x1024, .f32⟩
  | .hbm, ⟨75, _⟩ => ⟨S64x1024x1024, .f32⟩
  | .hbm, ⟨76, _⟩ => ⟨S64x1024x1024, .f32⟩
  | .hbm, ⟨77, _⟩ => ⟨S_, .f32⟩
  | .hbm, ⟨78, _⟩ => ⟨S64x1024x1024, .f32⟩
  | .hbm, ⟨79, _⟩ => ⟨S64x1024x1024, .i1⟩
  | .hbm, ⟨80, _⟩ => ⟨S64x1024x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_cst_8 : Ref sig .tc := ⟨.hbm, 38, rfl⟩
abbrev main_v28 : Ref sig .tc := ⟨.hbm, 39, rfl⟩
abbrev main_v29 : Ref sig .tc := ⟨.hbm, 40, rfl⟩
abbrev main_cst_9 : Ref sig .tc := ⟨.hbm, 41, rfl⟩
abbrev main_v30 : Ref sig .tc := ⟨.hbm, 42, rfl⟩
abbrev main_v31 : Ref sig .tc := ⟨.hbm, 43, rfl⟩
abbrev main_cst_10 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_11 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_12 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_13 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_14 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_15 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_16 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_17 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_18 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)

variable [Facts₀]

class Facts : Prop extends Facts₀ where

variable [Facts]
-- ==== Proof.ScaledBessel.lean ====
/-
  The exponentially scaled modified Bessel function of order zero, exp(-|x|) · I0(x), by the two rational
  approximations of Abramowitz and Stegun 9.8.1 / 9.8.2, as ONE function of an extended real:

    a = |x|,   t = (a / 3.75)²,   u = 3.75 / max a 3.75,
    |x| ≤ 3.75 :  exp(-a) · p(t)              p of degree 6,
    |x| > 3.75 :  q(u) / √(max a 3.75)        q of degree 8,

  both polynomials by Horner's scheme from the leading coefficient down. Every coefficient, and the breakpoint 3.75, is
  kept as the f32 word that spells it: the two programs compared spell the same words, so no word is ever evaluated. The
  quotient, exponential, square root and comparison are the extended reals' (the quotient with its conventions at a zero
  or infinite divisor); nothing below asks the argument to be finite.
-/
import Idealize.ShloMosaic.PureOps.Ideal
import Idealize.ShloMosaic.PureOps.Ideal.Laws

noncomputable section

namespace Cert.ScaledBessel

open Idealize.ShloMosaic

/-- The breakpoint 3.75 between the two approximations. -/
abbrev brk : EReal := Ideal.ofBits .f32 0x40700000#32

/-- The polynomial of the small branch at t = (a / 3.75)²: degree 6, constant term 1, Horner's scheme. -/
def smallPoly (t : EReal) : EReal :=
  (((((Ideal.ofBits .f32 0x3B961EBB#32 * t + Ideal.ofBits .f32 0x3D13C544#32) * t + Ideal.ofBits .f32 0x3E882DA4#32) * t
    + Ideal.ofBits .f32 0x3F9A76C2#32) * t + Ideal.ofBits .f32 0x4045C19E#32) * t + Ideal.ofBits .f32 0x4060FFF7#32) * t
    + Ideal.ofBits .f32 0x3F800000#32

/-- The polynomial of the large branch at u = 3.75 / max a 3.75: degree 8, Horner's scheme. -/
def largePoly (u : EReal) : EReal :=
  (((((((Ideal.ofBits .f32 0x3B8092F8#32 * u + Ideal.ofBits .f32 0xBC86F95E#32) * u + Ideal.ofBits .f32 0x3CD7E738#32) * u
    + Ideal.ofBits .f32 0xBCA89139#32) * u + Ideal.ofBits .f32 0x3C161F9C#32) * u + Ideal.ofBits .f32 0xBACE860A#32) * u
    + Ideal.ofBits .f32 0x3B13AA41#32) * u + Ideal.ofBits .f32 0x3C59AD30#32) * u + Ideal.ofBits .f32 0x3ECC422A#32

/-- The two branches joined at the breakpoint, at a magnitude `a`, with the exponential's argument `n` kept apart:
    one program writes it `-a`, the other `0 - a`. -/
def branches (n a : EReal) : EReal :=
  Scalar.select (Ideal.cmp .ole a brk)
    (Ideal.exp n * smallPoly (Ideal.div a brk * Ideal.div a brk))
    (Ideal.div (largePoly (Ideal.div brk (max a brk))) (Ideal.sqrt (max a brk)))

/-- The approximation at `x`: the branches at the magnitude |x| = max x (-x). -/
def i0e (x : EReal) : EReal := branches (-(max x (-x))) (max x (-x))

/-- Subtracting from the zero word is negating: on the extended reals `0 - a = 0 + -a = -a`, infinities included. -/
theorem zero_word_sub (a : EReal) : Ideal.ofBits .f32 0x00000000#32 - a = -a := by
  rw [Ideal.ofBits_zero_f32, sub_eq_add_neg, zero_add]

/-- So the form with the exponential of `0 - |x|` is the approximation too. -/
theorem branches_zero_sub (x : EReal) :
    branches (Ideal.ofBits .f32 0x00000000#32 - max x (-x)) (max x (-x)) = i0e x := by
  rw [zero_word_sub]; rfl

end Cert.ScaledBessel

end
-- ==== Proof.RefValue.lean ====
/-
  The reference computes the approximation entry by entry. Its last stage, read at an index of the [64, 1024, 1024]
  array, is a tree of scalar operations of the ONE entry of the argument at that index: every stage is pointwise, and a
  broadcast scalar reads its word wherever it is read. That tree is `ScaledBessel.i0e` of the entry — magnitude, the
  quotients by and of 3.75, the square, the exponential of the negated magnitude, the two Horner chains coefficient
  by coefficient, the square root of the clamped magnitude, the comparison with 3.75 and the choice between the branches.
-/
import proofs.«144486_j86723979640946_1_alg».proof.Proof.Gen.ReferenceIdeal.Read
import proofs.«144486_j86723979640946_1_alg».proof.Proof.ScaledBessel

noncomputable section

namespace Cert.ReferenceIdeal.RefValue

open Cert.ReferenceIdeal Idealize.ShloMosaic Cert.ScaledBessel

/-- The reference's result stage at an index is the approximation of the argument's entry there. -/
theorem stage_apply (x : S64x1024x1024.Idx → EReal) (i : S64x1024x1024.Idx) :
    Read.val_main_v59 (F := Ideal) x i = i0e (x i) := by
  simp only [
    Read.val_main_v59_apply, Read.val_main_v58_apply, Read.val_main_v57_apply, Read.val_main_cst_18_apply,
    Read.val_main_v56_apply, Read.val_main_v55_apply, Read.val_main_v54_apply, Read.val_main_v53_apply,
    Read.val_main_cst_17_apply, Read.val_main_v52_apply, Read.val_main_v51_apply, Read.val_main_v50_apply,
    Read.val_main_cst_16_apply, Read.val_main_v49_apply, Read.val_main_v48_apply, Read.val_main_v47_apply,
    Read.val_main_cst_15_apply, Read.val_main_v46_apply, Read.val_main_v45_apply, Read.val_main_v44_apply,
    Read.val_main_cst_14_apply, Read.val_main_v43_apply, Read.val_main_v42_apply, Read.val_main_v41_apply,
    Read.val_main_cst_13_apply, Read.val_main_v40_apply, Read.val_main_v39_apply, Read.val_main_v38_apply,
    Read.val_main_cst_12_apply, Read.val_main_v37_apply, Read.val_main_v36_apply, Read.val_main_v35_apply,
    Read.val_main_cst_11_apply, Read.val_main_v34_apply, Read.val_main_v33_apply, Read.val_main_v32_apply,
    Read.val_main_cst_10_apply, Read.val_main_v31_apply, Read.val_main_v30_apply, Read.val_main_cst_9_apply,
    Read.val_main_v29_apply, Read.val_main_v28_apply, Read.val_main_cst_8_apply, Read.val_main_v27_apply,
    Read.val_main_v26_apply, Read.val_main_cst_7_apply, Read.val_main_v25_apply, Read.val_main_v24_apply,
    Read.val_main_v23_apply, Read.val_main_cst_6_apply, Read.val_main_v22_apply, Read.val_main_v21_apply,
    Read.val_main_v20_apply, Read.val_main_cst_5_apply, Read.val_main_v19_apply, Read.val_main_v18_apply,
    Read.val_main_v17_apply, Read.val_main_cst_4_apply, Read.val_main_v16_apply, Read.val_main_v15_apply,
    Read.val_main_v14_apply, Read.val_main_cst_3_apply, Read.val_main_v13_apply, Read.val_main_v12_apply,
    Read.val_main_v11_apply, Read.val_main_cst_2_apply, Read.val_main_v10_apply, Read.val_main_v9_apply,
    Read.val_main_v8_apply, Read.val_main_cst_1_apply, Read.val_main_v7_apply, Read.val_main_v6_apply,
    Read.val_main_cst_0_apply, Read.val_main_v5_apply, Read.val_main_v4_apply, Read.val_main_v3_apply,
    Read.val_main_v2_apply, Read.val_main_v1_apply, Read.val_main_cst_apply, Read.val_main_v0_apply]
  rfl

/-- The whole stage as a function of the argument array. -/
theorem stage_eq (x : S64x1024x1024.Idx → EReal) :
    Read.val_main_v59 (F := Ideal) x = fun i => i0e (x i) :=
  funext (stage_apply x)

end Cert.ReferenceIdeal.RefValue

end
-- ==== Proof.KernelPoint.lean ====
/-
  What one grid point of the kernel computes. Its body loads the whole [512, 1024] block, applies a tree of pointwise
  vector operations and stores the whole block; so the stored block, read at an index, is a tree of scalar operations
  of the loaded block's ONE entry at that index — the same tree as the reference's, `ScaledBessel.i0e`, but for the
  exponential's argument, which the kernel writes `0 - |x|` (`ScaledBessel.branches_zero_sub`). The shape cast the body
  applies to the loaded block is to the block's own shape: the identity.
-/
import proofs.«144486_j86723979640946_1_alg».proof.Proof.Gen.KernelIdeal.Skeleton
import proofs.«144486_j86723979640946_1_alg».proof.Proof.ScaledBessel
import Idealize.ShloMosaic.Lib.Pipeline.Value

noncomputable section

namespace Cert.KernelIdeal.Point

open Cert.KernelIdeal Cert.KernelIdeal.Gen Idealize.ShloMosaic Cert.ScaledBessel

/-- The magnitude the body computes first, at an index: |x| of the loaded entry. -/
theorem magnitude_apply (v : Vec Ideal S512x1024 .f32) (j : S512x1024.Idx) :
    k0_pay2 (F := Ideal) v j = max (v j) (-(v j)) := by
  unfold k0_pay2
  rw [shapeCast_self]
  rfl

/-- The stored block at an index, as the branches at the body's magnitude there. -/
theorem stored_apply_mag (v : Vec Ideal S512x1024 .f32) (j : S512x1024.Idx) :
    k0_pay1 (k0_pay2 v) (k0_pay3 v) (k0_pay4 v) (k0_pay5 v) (k0_pay6 v) (k0_pay7 (F := Ideal)) j
      = branches (Ideal.ofBits .f32 0x00000000#32 - k0_pay2 (F := Ideal) v j) (k0_pay2 (F := Ideal) v j) := rfl

/-- The stored block at an index is the approximation of the loaded block's entry there. -/
theorem stored_apply (v : Vec Ideal S512x1024 .f32) (j : S512x1024.Idx) :
    k0_pay1 (k0_pay2 v) (k0_pay3 v) (k0_pay4 v) (k0_pay5 v) (k0_pay6 v) (k0_pay7 (F := Ideal)) j = i0e (v j) := by
  rw [stored_apply_mag, magnitude_apply, branches_zero_sub]

/-- The stored block as a function of the loaded block. -/
theorem stored_eq (v : Vec Ideal S512x1024 .f32) :
    k0_pay1 (k0_pay2 v) (k0_pay3 v) (k0_pay4 v) (k0_pay5 v) (k0_pay6 v) (k0_pay7 (F := Ideal)) = fun j => i0e (v j) :=
  funext (stored_apply v)

end Cert.KernelIdeal.Point

end
-- ==== Proof.KernelWhole.lean ====
/-
  The kernel's result array as one function of its argument array.

  The program reshapes the argument [64, 1024, 1024] to [65536, 1024] (the same entries in row-major order), runs the
  kernel over a grid of 128 points, point t reading rows 512·t … 512·t + 511 of that matrix and writing the same rows of
  the output matrix, and reshapes the output back to [64, 1024, 1024].

  Each point stores the approximation of every entry of the block it loaded (`Point.stored_eq`), and the input and the
  output window have the same index map, so what point t writes back is block t of the ONE matrix `rowsOut`: the
  approximation of every entry of the reshaped argument. Row r lies in the block of point r / 512, so the 128 blocks
  cover the output matrix, which therefore ends as `rowsOut`. A reshape moves entries without changing them, so it
  commutes with an entrywise function, and reshaping there and back is the identity: the result is the approximation
  of every entry of the argument, index by index.
-/
import proofs.«144486_j86723979640946_1_alg».proof.Proof.Gen.KernelIdeal.Frame
import proofs.«144486_j86723979640946_1_alg».proof.Proof.KernelPoint
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.ScaledBessel

variable (m : (ℓ : Loc nD τ sig) → Buf (Elt Ideal) ℓ) (ρ : Dev nD → PrngReg)

/-- The body's one load and one store are at offset (0, 0) of the block. -/
theorem zero_offsets : (![0, 0] : Fin 2 → Nat) = fun _ => 0 := funext fun a => by fin_cases a <;> rfl

/-- The output matrix: the approximation of every entry of the matrix the region reads. -/
abbrev rowsOut (c : Dev nD) : S65536x1024.Idx → EReal :=
  fun j => i0e ((V m c main_v0 : S65536x1024.Idx → EReal) j)

/-- The two windows move together, block row t at point t, the one block column always. -/
theorem index_maps : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point t writes back is block t of `rowsOut`. -/
theorem flushed_eq (c : Dev nD) (t : Fin cfg0.N) :
    (dats m 0 c).flushed 1 t = ((cfg0.win 1).blk t).view.read (Elt Ideal) (rowsOut m c) := by
  show (cfg0.win 1).cut (grid0.coords t) ((dats m 0 c).after 1 t) = _
  rw [after0_1]
  unfold out0_1
  rw [View.canon_unit_zero zero_offsets]
  simp only [View.ld_unit_zero (S := S512x1024) zero_offsets]
  rw [Point.stored_eq]
  obtain ⟨e0, e1, -, -⟩ := index_maps t
  funext j
  show i0e ((V m c main_v0 : S65536x1024.Idx → EReal) (((cfg0.win 0).blk t).view.emb j))
    = i0e ((V m c main_v0 : S65536x1024.Idx → EReal) (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 1024 + 1 * (j 1).val = win0_1.index t (1 : Fin 2) * 1024 + 1 * (j 1).val; omega
  rw [h0]

/-- An index of the output matrix is in point t's block iff each coordinate is in the block's range on its axis. -/
theorem mem_block (t : Fin cfg0.N) (i : S65536x1024.Idx) :
    i ∈ ((cfg0.win 1).blk t).view.set ↔ ∀ a : Fin 2, win0_1.index t a * S512x1024.size a ≤ (i a).val
      ∧ (i a).val < win0_1.index t a * S512x1024.size a + S512x1024.size a := by
  show i ∈ ((View.whole main_v1).slice (win0_1.rect t)).set ↔ _
  rw [View.set_slice_whole, Rect.mem_set_unit]
  exact Iff.rfl

/-- Row r of the output matrix is in the block of point r / 512: the blocks cover the matrix. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  obtain ⟨t, ht⟩ : ∃ t : Fin cfg0.N, t.val = (i 0).val / 512 :=
    ⟨⟨(i 0).val / 512, by rw [show cfg0.N = 128 from N_0]; omega⟩, rfl⟩
  obtain ⟨-, -, e2, e3⟩ := index_maps t
  refine ⟨t, flush0_1 t, ?_⟩
  rw [mem_block]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 1024 ≤ (i 1).val ∧ (i 1).val < win0_1.index t (1 : Fin 2) * 1024 + 1024
    omega

/-- So the output matrix ends as `rowsOut`. -/
theorem final (c : Dev nD) : (dats m 0 c).arrAt 1 cfg0.N = rowsOut m c :=
  (dats m 0 c).arrAt_eq_of_cover 1 (rowsOut m c) (fun t _ => flushed_eq m c t) covered

/-- The matrix the region reads is the argument reshaped. -/
theorem entry_rows (c : Dev nD) (h : S64x1024x1024.ShapeCasts S65536x1024) :
    (V m c main_v0 : S65536x1024.Idx → EReal) = shapeCast S65536x1024 (m ((c : Thread nD τ).loc main_arg0)) h := by
  show StableHlo.after hostOps0 (fun b => m (c, b)) (Proc.devRef .tc main_v0) = _
  after_results
  rfl

/-- Reshaping back the approximation of every entry of a reshaped array gives the approximation of every entry of
    the array: a reshape commutes with an entrywise function, and there and back it is the identity. -/
theorem reshape_back (x : S64x1024x1024.Idx → EReal) (A : S65536x1024.Idx → EReal)
    (h1 : S64x1024x1024.ShapeCasts S65536x1024) (h2 : S65536x1024.ShapeCasts S64x1024x1024)
    (hA : A = fun j => i0e (shapeCast S65536x1024 x h1 j)) :
    shapeCast S64x1024x1024 A h2 = fun i => i0e (x i) := by
  subst hA
  funext i
  exact congrArg i0e (congrFun (shapeCast_shapeCast x h1 h2) i)

/-- The result: the output matrix reshaped back is the approximation of every entry of the argument. -/
theorem result_eq (c : Dev nD) :
    Pipeline.afterTail₀ cfgs (dats m) 0 (V0 m) [hostOps1] c main_v2
      = fun i => i0e ((m ((c : Thread nD τ).loc main_arg0) : S64x1024x1024.Idx → EReal) i) := by
  unfold Pipeline.afterTail₀
  show StableHlo.after hostOps1 _ (Proc.devRef .tc main_v2) = _
  after_results
  show shapeCast S64x1024x1024 (Pipeline.withArrays (cfgs 0).spec c (V0 m c) (fun w => (dats m 0 c).arrAt w (cfgs 0).N)
      (Proc.devRef .tc main_v1)) shapeCasts_S65536x1024_S64x1024x1024 = _
  refine reshape_back _ _ shapeCasts_S64x1024x1024_S65536x1024 _ ?_
  refine ((Pipeline.withArrays_arr spec0 launch0.win.arr_inj c _ _ 1).trans (final m c)).trans ?_
  funext j
  show i0e ((V m c main_v0 : S65536x1024.Idx → EReal) j) = _
  rw [entry_rows m c shapeCasts_S64x1024x1024_S65536x1024]

/-- The run, read: every weakly fair execution of the kernel's program ends with its result array at the
    approximation of every entry of the argument, the argument unchanged. -/
theorem run : θ_run defs (onTc (τ := τ) (main (F := Ideal))) ⟨m, fun _ => 0, ρ⟩ fun r => ∀ c : Dev nD,
      r.2.mem ((c : Thread nD τ).loc main_v2)
        = (fun i => i0e ((m ((c : Thread nD τ).loc main_arg0) : S64x1024x1024.Idx → EReal) i))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Whole

end
-- ==== Proof.lean ====
/-
  The kernel and the reference compute the same array: entry by entry, the exponentially scaled modified Bessel
  function of order zero, exp(-|x|) · I0(x), by the rational approximations of Abramowitz and Stegun 9.8.1 / 9.8.2 —
  `ScaledBessel.i0e` of the entry (Proof/ScaledBessel.lean).

  The reference applies the approximation to the whole [64, 1024, 1024] array with pointwise host operations; its
  result at an index is `i0e` of the argument's entry there (Proof/RefValue.lean, over the generated read of its run).
  The kernel reshapes the array to a [65536, 1024] matrix, applies the same tree of pointwise operations to blocks of
  512 rows at 128 grid points, and reshapes back (Proof/KernelPoint.lean: one block; Proof/KernelWhole.lean: the blocks
  cover the matrix, and a reshape there and back around an entrywise function is that function). The two trees differ
  in ONE place: the exponential's argument is `-|x|` in the reference and `0 - |x|` in the kernel, equal on the extended
  reals, infinities included; so the claim needs nothing of the precondition, and every coefficient is the same f32
  word on both sides and is never evaluated.

  The three frames are the generated ones (the reference's is its generated run with the result dropped); the ideal pass
  rewrote no operation, so what `preserves` asks is `True`.
-/
import proofs.«144486_j86723979640946_1_alg».proof.Defs
import proofs.«144486_j86723979640946_1_alg».proof.Proof.Gen.Kernel
import proofs.«144486_j86723979640946_1_alg».proof.Proof.Gen.Kernel.Skeleton
import proofs.«144486_j86723979640946_1_alg».proof.Proof.Gen.Kernel.Launch
import proofs.«144486_j86723979640946_1_alg».proof.Proof.Gen.Kernel.Points
import proofs.«144486_j86723979640946_1_alg».proof.Proof.Gen.Kernel.Frame
import proofs.«144486_j86723979640946_1_alg».proof.Proof.Gen.KernelIdeal
import proofs.«144486_j86723979640946_1_alg».proof.Proof.Gen.KernelIdeal.Skeleton
import proofs.«144486_j86723979640946_1_alg».proof.Proof.Gen.KernelIdeal.Launch
import proofs.«144486_j86723979640946_1_alg».proof.Proof.Gen.KernelIdeal.Points
import proofs.«144486_j86723979640946_1_alg».proof.Proof.Gen.KernelIdeal.Frame
import proofs.«144486_j86723979640946_1_alg».proof.Proof.Gen.ReferenceIdeal
import proofs.«144486_j86723979640946_1_alg».proof.Proof.Gen.Pre_finite_inputs
import proofs.«144486_j86723979640946_1_alg».proof.Proof.Gen.ReferenceIdeal.Run
import proofs.«144486_j86723979640946_1_alg».proof.Proof.Gen.ReferenceIdeal.Read
import proofs.«144486_j86723979640946_1_alg».proof.Proof.ScaledBessel
import proofs.«144486_j86723979640946_1_alg».proof.Proof.RefValue
import proofs.«144486_j86723979640946_1_alg».proof.Proof.KernelPoint
import proofs.«144486_j86723979640946_1_alg».proof.Proof.KernelWhole
import Idealize.ShloMosaic.Adequacy
import Idealize.ShloMosaic.Init

noncomputable section

namespace Cert.Proof

open Idealize.ShloMosaic Idealize.ShloMosaic.TcCoe Idealize.SL.Sem

/-- The kernel's program runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the argument both programs end with the approximation of every entry of the argument:
    the kernel's run read through its blocks and reshapes, the reference's through its stages. -/
theorem algebraic : Cert.algebraic_KernelIdeal_ReferenceIdeal := by
  intro m ρ m' ρ' _ hagree
  refine ⟨fun c => fun i => Cert.ScaledBessel.i0e
      ((m ((c : Thread Cert.KernelIdeal.nD Cert.KernelIdeal.τ).loc Cert.KernelIdeal.main_arg0)
        : Cert.KernelIdeal.S64x1024x1024.Idx → EReal) i),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.RefValue.stage_eq, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
